-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S256x128 : Shape := ⟨2, ![256, 128]⟩
abbrev S256 : Shape := ⟨1, ![256]⟩
abbrev S40x256 : Shape := ⟨2, ![40, 256]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg8 : FVec F S40x256 .f32) (main_arg9 : FVec F S40x256 .f32) (main_arg10 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S40x256 .f32 := Host.absf main_arg8
  let main_cst_6 : FVec F S_ .f32 := constant S_ .f32 0x7F800000#32
  let main_v20 : FVec F S40x256 .f32 := broadcastInDim S40x256 ![] bcast_S_S40x256 main_cst_6
  let main_v21 : IVec S40x256 1 := cmpf .olt main_v19 main_v20
  let main_c_7 : IVec S_ 1 := constantI S_ 1 1#1
  let main_v22 : IVec S_ 1 := (fun x v => Host.reduce IntOp.andi x v reducesTo_S40x256_S_d0_1 h_S_) main_v21 main_c_7
  let main_v23 : IVec S_ 1 := andi main_v18 main_v22
  let main_v24 : FVec F S40x256 .f32 := Host.absf main_arg9
  let main_cst_8 : FVec F S_ .f32 := constant S_ .f32 0x7F800000#32
  let main_v25 : FVec F S40x256 .f32 := broadcastInDim S40x256 ![] bcast_S_S40x256 main_cst_8
  let main_v26 : IVec S40x256 1 := cmpf .olt main_v24 main_v25
  let main_c_9 : IVec S_ 1 := constantI S_ 1 1#1
  let main_v27 : IVec S_ 1 := (fun x v => Host.reduce IntOp.andi x v reducesTo_S40x256_S_d0_1 h_S_) main_v26 main_c_9
  let main_v28 : IVec S_ 1 := andi main_v23 main_v27
  let main_v29 : FVec F S40 .f32 := Host.absf main_arg10
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S600000 32) (main_arg2 : IVec S600000 32) (main_arg3 : IVec S600000 32) (main_arg4 : IVec S600000 32) (main_arg5 : FVec F S256x128 .f32) (main_arg6 : FVec F S256x128 .f32) (main_arg7 : FVec F S256 .f32) (main_arg8 : FVec F S40x256 .f32) (main_arg9 : FVec F S40x256 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg5
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg6
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_v13 main_v16
-- ==== Kernel.lean ====
abbrev S100000x128 : Shape := ⟨2, ![100000, 128]⟩
abbrev S600000 : Shape := ⟨1, ![600000]⟩
abbrev S256x128 : Shape := ⟨2, ![256, 128]⟩
abbrev S256 : Shape := ⟨1, ![256]⟩
abbrev S40x256 : Shape := ⟨2, ![40, 256]⟩
abbrev S40 : Shape := ⟨1, ![40]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x256 : Shape := ⟨2, ![1, 256]⟩
abbrev S100000x256 : Shape := ⟨2, ![100000, 256]⟩
abbrev S5000x128 : Shape := ⟨2, ![5000, 128]⟩
abbrev S5000x256 : Shape := ⟨2, ![5000, 256]⟩
abbrev S600000x256 : Shape := ⟨2, ![600000, 256]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 65
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S600000, .i32⟩
  | .hbm, ⟨4, _⟩ => ⟨S600000, .i32⟩
  | .hbm, ⟨5, _⟩ => ⟨S256x128, .f32⟩
  | .hbm, ⟨6, _⟩ => ⟨S256x128, .f32⟩
  | .hbm, ⟨7, _⟩ => ⟨S256, .f32⟩
  | .hbm, ⟨8, _⟩ => ⟨S40x256, .f32⟩
  | .hbm, ⟨9, _⟩ => ⟨S40x256, .f32⟩
  | .hbm, ⟨10, _⟩ => ⟨S40, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S100000, .f32⟩
  | .hbm, ⟨28, _⟩ => ⟨S600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S1x256, .f32⟩
  | .hbm, ⟨37, _⟩ => ⟨S100000x256, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x256, .f32⟩
  | .hbm, ⟨47, _⟩ => ⟨S_, .f32⟩
  | .hbm, ⟨48, _⟩ => ⟨S100000x256, .f32⟩
  | .hbm, ⟨49, _⟩ => ⟨S600000x1, .i32⟩
  | .hbm, ⟨50, _⟩ => ⟨S100000x256, .f32⟩
  | .hbm, ⟨51, _⟩ => ⟨S_, .f32⟩
  | .hbm, ⟨52, _⟩ => ⟨S600000, .f32⟩
  | .hbm, ⟨53, _⟩ => ⟨S_, .f32⟩
  | .hbm, ⟨54, _⟩ => ⟨S100000, .f32⟩
  | .hbm, ⟨55, _⟩ => ⟨S600000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x256, .f32⟩
  | .hbm, ⟨62, _⟩ => ⟨S100000x256, .f32⟩
  | .hbm, ⟨63, _⟩ => ⟨S1x40, .f32⟩
  | .hbm, ⟨64, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S40x256, .f32⟩
  | .local _ .vmem, ⟨14, _⟩ => ⟨S40x256, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S40x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S40_S1x40 : S40.ShapeCasts S1x40
  shapeCasts_S5000x256_S5000x256 : S5000x256.ShapeCasts S5000x256
  inb_S40x256_S40x256_0_0 : ∀ a, (![0, 0] : Fin 2 → Nat) a + S40x256.size a ≤ S40x256.size a
  h_S40x256 : 0 < S40x256.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S256x128_S5000x256_1_1_0_0_n_n_wf : DotDims.WF S5000x128 S256x128 S5000x256 [1] [1] [0] [0] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S5000x256_S40x256_S5000x40_1_1_0_0_n_n_wf : DotDims.WF S5000x256 S40x256 S5000x40 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S100000x256.size a
  hwx0_5 : ∀ i : grid0.Coords, EltTy.bits .f32 = 32 ∨ (Rect.block (s := S100000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x256.size a ≤ S40x256.size a
  hwx1_2 : ∀ i : grid1.Coords, EltTy.bits .f32 = 32 ∨ (Rect.block (s := S40x256) S40x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x256.size a ≤ S40x256.size a
  hwx1_3 : ∀ i : grid1.Coords, EltTy.bits .f32 = 32 ∨ (Rect.block (s := S40x256) S40x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S256x128_S5000x256_1_1_0_0_n_n : DotDims S5000x128 S256x128 S5000x256 where
  lhsContracting := [1]
  rhsContracting := [1]
  lhsNonContracting := [0]
  rhsNonContracting := [0]
  lhsBatch := []
  rhsBatch := []
  wf := dot_S5000x128_S256x128_S5000x256_1_1_0_0_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S5000x256_S40x256_S5000x40_1_1_0_0_n_n : DotDims S5000x256 S40x256 S5000x40 where
  lhsContracting := [1]
  rhsContracting := [1]
  lhsNonContracting := [0]
  rhsNonContracting := [0]
  lhsBatch := []
  rhsBatch := []
  wf := dot_S5000x256_S40x256_S5000x40_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S40x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S40x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000 : Shape := ⟨1, ![600000]⟩
abbrev S256x128 : Shape := ⟨2, ![256, 128]⟩
abbrev S256 : Shape := ⟨1, ![256]⟩
abbrev S40x256 : Shape := ⟨2, ![40, 256]⟩
abbrev S40 : Shape := ⟨1, ![40]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S600000x256 : Shape := ⟨2, ![600000, 256]⟩
abbrev S256x40 : Shape := ⟨2, ![256, 40]⟩
abbrev S100000x40 : Shape := ⟨2, ![100000, 40]⟩
abbrev S1x40 : Shape := ⟨2, ![1, 40]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S600000, .i32⟩
  | .hbm, ⟨4, _⟩ => ⟨S600000, .i32⟩
  | .hbm, ⟨5, _⟩ => ⟨S256x128, .f32⟩
  | .hbm, ⟨6, _⟩ => ⟨S256x128, .f32⟩
  | .hbm, ⟨7, _⟩ => ⟨S256, .f32⟩
  | .hbm, ⟨8, _⟩ => ⟨S40x256, .f32⟩
  | .hbm, ⟨9, _⟩ => ⟨S40x256, .f32⟩
  | .hbm, ⟨10, _⟩ => ⟨S40, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S100000, .f32⟩
  | .hbm, ⟨28, _⟩ => ⟨S600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x256, .f32⟩
  | .hbm, ⟨37, _⟩ => ⟨S100000x256, .f32⟩
  | .hbm, ⟨38, _⟩ => ⟨S128x256, .f32⟩
  | .hbm, ⟨39, _⟩ => ⟨S100000x256, .f32⟩
  | .hbm, ⟨40, _⟩ => ⟨S100000x256, .f32⟩
  | .hbm, ⟨41, _⟩ => ⟨S1x256, .f32⟩
  | .hbm, ⟨42, _⟩ => ⟨S100000x256, .f32⟩
  | .hbm, ⟨43, _⟩ => ⟨S100000x256, .f32⟩
  | .hbm, ⟨44, _⟩ => ⟨S_, .f32⟩
  | .hbm, ⟨45, _⟩ => ⟨S100000x256, .f32⟩
  | .hbm, ⟨46, _⟩ => ⟨S100000x256, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x256, .f32⟩
  | .hbm, ⟨56, _⟩ => ⟨S_, .f32⟩
  | .hbm, ⟨57, _⟩ => ⟨S100000x256, .f32⟩
  | .hbm, ⟨58, _⟩ => ⟨S600000x1, .i32⟩
  | .hbm, ⟨59, _⟩ => ⟨S100000x256, .f32⟩
  | .hbm, ⟨60, _⟩ => ⟨S_, .f32⟩
  | .hbm, ⟨61, _⟩ => ⟨S600000, .f32⟩
  | .hbm, ⟨62, _⟩ => ⟨S_, .f32⟩
  | .hbm, ⟨63, _⟩ => ⟨S100000, .f32⟩
  | .hbm, ⟨64, _⟩ => ⟨S600000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x256, .f32⟩
  | .hbm, ⟨71, _⟩ => ⟨S100000x256, .f32⟩
  | .hbm, ⟨72, _⟩ => ⟨S256x40, .f32⟩
  | .hbm, ⟨73, _⟩ => ⟨S100000x40, .f32⟩
  | .hbm, ⟨74, _⟩ => ⟨S256x40, .f32⟩
  | .hbm, ⟨75, _⟩ => ⟨S100000x40, .f32⟩
  | .hbm, ⟨76, _⟩ => ⟨S100000x40, .f32⟩
  | .hbm, ⟨77, _⟩ => ⟨S1x40, .f32⟩
  | .hbm, ⟨78, _⟩ => ⟨S100000x40, .f32⟩
  | .hbm, ⟨79, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_cst : Ref sig .tc := ⟨.hbm, 44, rfl⟩
abbrev main_call0_v0 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S40x256_S256x40_1_0 : S40x256.Transposes [1, 0] S256x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x40_S100000x40_1_0_0_1_n_n_wf : DotDims.WF S100000x256 S256x40 S100000x40 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.KernelRun.lean ====
/-
  The kernel's program run from launch to return, with the result's final contents named.

  The program is four stretches in order: host operations, the first layer's grid, host operations, the second
  layer's grid. Every weakly fair execution goes through them, the contents of every buffer outside the kernels'
  own staging at each boundary being a fold through the stretches from the launch memory; the last boundary's
  contents are what the final state holds, at the result as at every argument.
-/
import proofs.«118997_j7962869367673_1_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result holding the last boundary's
    contents and every argument what it held at launch. -/
theorem run_named : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.Sage.KernelRun

end
-- ==== Proof.Layer.lean ====
/-
  One dense layer of the network on the extended reals, and what the kernel body stores, read at an index.

  A layer takes node features `X` (one row per node), the mean of each node's in-neighbours' features `H`,
  two weight matrices `Ws`, `Wn` (one row per output channel) and a bias row `B`, and gives at node `r`,
  channel `q`
      ∑ₖ X[r,k]·Ws[q,k]  +  ∑ₖ H[r,k]·Wn[q,k]  +  B[0,q],
  the first layer followed by a maximum with zero. On the extended reals the roundings to bf16 that the kernel
  puts in front of its two matrix products are the identity, and a matrix product into a zero accumulator is
  the plain sum over the contracted axis: so the body's stored block, at row `p` and channel `q` of the block, is
  this expression of the ROWS `p` of the two feature blocks.
-/
import proofs.«118997_j7962869367673_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx Cert.KernelIdeal Cert.KernelIdeal.Gen

/-! ## The layers as functions of whole arrays -/

/-- Layer 1 at node `r`, channel `q`: self term plus neighbour term plus bias, then the maximum with zero. -/
def layer1At (X H : FVec Ideal S100000x128 .f32) (Ws Wn : FVec Ideal S256x128 .f32) (B : FVec Ideal S1x256 .f32)
    (r : Fin 100000) (q : Fin 256) : Ideal .f32 :=
  max ((∑ k : Fin 128, X (ix2 r k) * Ws (ix2 q k)) + (∑ k : Fin 128, H (ix2 r k) * Wn (ix2 q k)) + B (ix2 (0 : Fin 1) q))
    (Ideal.ofBits .f32 0x00000000#32)

/-- Layer 1 as one array. -/
def layer1 (X H : FVec Ideal S100000x128 .f32) (Ws Wn : FVec Ideal S256x128 .f32) (B : FVec Ideal S1x256 .f32) :
    FVec Ideal S100000x256 .f32 :=
  fun i => layer1At X H Ws Wn B ⟨(i 0).val, (i 0).isLt⟩ ⟨(i 1).val, (i 1).isLt⟩

/-- Layer 2 at node `r`, channel `q`: self term plus neighbour term plus bias. -/
def layer2At (X H : FVec Ideal S100000x256 .f32) (Ws Wn : FVec Ideal S40x256 .f32) (B : FVec Ideal S1x40 .f32)
    (r : Fin 100000) (q : Fin 40) : Ideal .f32 :=
  (∑ k : Fin 256, X (ix2 r k) * Ws (ix2 q k)) + (∑ k : Fin 256, H (ix2 r k) * Wn (ix2 q k)) + B (ix2 (0 : Fin 1) q)

/-- Layer 2 as one array. -/
def layer2 (X H : FVec Ideal S100000x256 .f32) (Ws Wn : FVec Ideal S40x256 .f32) (B : FVec Ideal S1x40 .f32) :
    FVec Ideal S100000x40 .f32 :=
  fun i => layer2At X H Ws Wn B ⟨(i 0).val, (i 0).isLt⟩ ⟨(i 1).val, (i 1).isLt⟩

/-! ## A matrix product contracting the last axis of both operands, into zeros, at an index -/

/-- On a non-contracted axis an operand's index is the output's coordinate: the left operand's rows are the output's
    rows, the right operand's rows the output's columns (both operands are contracted on their SECOND axis). -/
theorem lhs0_128 (i : S5000x256.Idx) (k : dot_S5000x128_S256x128_S5000x256_1_1_0_0_n_n.contr.Idx) :
    (dot_S5000x128_S256x128_S5000x256_1_1_0_0_n_n.lhsIdx i k 0).val = (i 0).val := by
  unfold DotDims.lhsIdx
  rw [dif_neg (show ¬(0 : Fin S5000x128.rank) ∈ dot_S5000x128_S256x128_S5000x256_1_1_0_0_n_n.lhsBatch by decide),
    dif_pos (show (0 : Fin S5000x128.rank) ∈ dot_S5000x128_S256x128_S5000x256_1_1_0_0_n_n.lhsNonContracting by decide)]
  rfl
theorem rhs0_128 (i : S5000x256.Idx) (k : dot_S5000x128_S256x128_S5000x256_1_1_0_0_n_n.contr.Idx) :
    (dot_S5000x128_S256x128_S5000x256_1_1_0_0_n_n.rhsIdx i k 0).val = (i 1).val := by
  unfold DotDims.rhsIdx
  rw [dif_neg (show ¬(0 : Fin S256x128.rank) ∈ dot_S5000x128_S256x128_S5000x256_1_1_0_0_n_n.rhsBatch by decide),
    dif_pos (show (0 : Fin S256x128.rank) ∈ dot_S5000x128_S256x128_S5000x256_1_1_0_0_n_n.rhsNonContracting by decide)]
  rfl
theorem lhs0_256 (i : S5000x40.Idx) (k : dot_S5000x256_S40x256_S5000x40_1_1_0_0_n_n.contr.Idx) :
    (dot_S5000x256_S40x256_S5000x40_1_1_0_0_n_n.lhsIdx i k 0).val = (i 0).val := by
  unfold DotDims.lhsIdx
  rw [dif_neg (show ¬(0 : Fin S5000x256.rank) ∈ dot_S5000x256_S40x256_S5000x40_1_1_0_0_n_n.lhsBatch by decide),
    dif_pos (show (0 : Fin S5000x256.rank) ∈ dot_S5000x256_S40x256_S5000x40_1_1_0_0_n_n.lhsNonContracting by decide)]
  rfl
theorem rhs0_256 (i : S5000x40.Idx) (k : dot_S5000x256_S40x256_S5000x40_1_1_0_0_n_n.contr.Idx) :
    (dot_S5000x256_S40x256_S5000x40_1_1_0_0_n_n.rhsIdx i k 0).val = (i 1).val := by
  unfold DotDims.rhsIdx
  rw [dif_neg (show ¬(0 : Fin S40x256.rank) ∈ dot_S5000x256_S40x256_S5000x40_1_1_0_0_n_n.rhsBatch by decide),
    dif_pos (show (0 : Fin S40x256.rank) ∈ dot_S5000x256_S40x256_S5000x40_1_1_0_0_n_n.rhsNonContracting by decide)]
  rfl

/-- Rows of 128: entry `(p, q)` of the product of a [5000,128] block with a [256,128] matrix, both contracted on their
    second axis, into a zero accumulator, is the dot product of row `p` with row `q`. -/
theorem matmul128_apply (a : FVec Ideal S5000x128 .bf16) (w : FVec Ideal S256x128 .bf16) (p : Fin 5000) (q : Fin 256) :
    matmul dot_S5000x128_S256x128_S5000x256_1_1_0_0_n_n none a w (constant (F := Ideal) S5000x256 .f32 0x00000000#32) (ix2 p q)
      = ∑ k : Fin 128, a (ix2 p k) * w (ix2 q k) := by
  simp only [matmul]
  rw [Ideal.matmul_constant_zero_apply,
    ← Equiv.sum_comp (contrEquiv1 dot_S5000x128_S256x128_S5000x256_1_1_0_0_n_n 128 rfl rfl).symm]
  refine Finset.sum_congr rfl fun k _ => ?_
  have hk := contrEquiv1_symm_val dot_S5000x128_S256x128_S5000x256_1_1_0_0_n_n 128 rfl rfl k
  have el : dot_S5000x128_S256x128_S5000x256_1_1_0_0_n_n.lhsIdx (ix2 p q)
      ((contrEquiv1 dot_S5000x128_S256x128_S5000x256_1_1_0_0_n_n 128 rfl rfl).symm k) = ix2 p k :=
    funext fun ax => Fin.ext (by
      match ax with
      | ⟨0, _⟩ => exact lhs0_128 _ _
      | ⟨1, _⟩ => exact (dot_S5000x128_S256x128_S5000x256_1_1_0_0_n_n.lhsIdx_val_of_single rfl _ _).trans hk)
  have er : dot_S5000x128_S256x128_S5000x256_1_1_0_0_n_n.rhsIdx (ix2 p q)
      ((contrEquiv1 dot_S5000x128_S256x128_S5000x256_1_1_0_0_n_n 128 rfl rfl).symm k) = ix2 q k :=
    funext fun ax => Fin.ext (by
      match ax with
      | ⟨0, _⟩ => exact rhs0_128 _ _
      | ⟨1, _⟩ => exact (dot_S5000x128_S256x128_S5000x256_1_1_0_0_n_n.rhsIdx_val_of_single rfl _ _).trans hk)
  rw [el, er]

/-- Rows of 256: entry `(p, q)` of the product of a [5000,256] block with a [40,256] matrix. -/
theorem matmul256_apply (a : FVec Ideal S5000x256 .bf16) (w : FVec Ideal S40x256 .bf16) (p : Fin 5000) (q : Fin 40) :
    matmul dot_S5000x256_S40x256_S5000x40_1_1_0_0_n_n none a w (constant (F := Ideal) S5000x40 .f32 0x00000000#32) (ix2 p q)
      = ∑ k : Fin 256, a (ix2 p k) * w (ix2 q k) := by
  simp only [matmul]
  rw [Ideal.matmul_constant_zero_apply,
    ← Equiv.sum_comp (contrEquiv1 dot_S5000x256_S40x256_S5000x40_1_1_0_0_n_n 256 rfl rfl).symm]
  refine Finset.sum_congr rfl fun k _ => ?_
  have hk := contrEquiv1_symm_val dot_S5000x256_S40x256_S5000x40_1_1_0_0_n_n 256 rfl rfl k
  have el : dot_S5000x256_S40x256_S5000x40_1_1_0_0_n_n.lhsIdx (ix2 p q)
      ((contrEquiv1 dot_S5000x256_S40x256_S5000x40_1_1_0_0_n_n 256 rfl rfl).symm k) = ix2 p k :=
    funext fun ax => Fin.ext (by
      match ax with
      | ⟨0, _⟩ => exact lhs0_256 _ _
      | ⟨1, _⟩ => exact (dot_S5000x256_S40x256_S5000x40_1_1_0_0_n_n.lhsIdx_val_of_single rfl _ _).trans hk)
  have er : dot_S5000x256_S40x256_S5000x40_1_1_0_0_n_n.rhsIdx (ix2 p q)
      ((contrEquiv1 dot_S5000x256_S40x256_S5000x40_1_1_0_0_n_n 256 rfl rfl).symm k) = ix2 q k :=
    funext fun ax => Fin.ext (by
      match ax with
      | ⟨0, _⟩ => exact rhs0_256 _ _
      | ⟨1, _⟩ => exact (dot_S5000x256_S40x256_S5000x40_1_1_0_0_n_n.rhsIdx_val_of_single rfl _ _).trans hk)
  rw [el, er]

/-! ## What the body stores, at row `p` and channel `q` of the block -/

/-- Region 0's stored block at `(p, q)`: the layer-1 expression of rows `p` of its two feature blocks. -/
theorem stored1_apply (x0 x1 : Vec Ideal S5000x128 .f32) (x2 x3 : Vec Ideal S256x128 .f32) (x4 : Vec Ideal S1x256 .f32)
    (p : Fin 5000) (q : Fin 256) :
    k0_pay1 (F := Ideal) x0 x1 x2 x3 x4 (ix2 p q)
      = max ((∑ k : Fin 128, x0 (ix2 p k) * x2 (ix2 q k)) + (∑ k : Fin 128, x1 (ix2 p k) * x3 (ix2 q k)) + x4 (ix2 (0 : Fin 1) q))
          (Ideal.ofBits .f32 0x00000000#32) := by
  unfold k0_pay1
  show max ((matmul dot_S5000x128_S256x128_S5000x256_1_1_0_0_n_n none _ _ (constant (F := Ideal) S5000x256 .f32 0x00000000#32) (ix2 p q)
      + matmul dot_S5000x128_S256x128_S5000x256_1_1_0_0_n_n none _ _ (constant (F := Ideal) S5000x256 .f32 0x00000000#32) (ix2 p q))
      + broadcastTo S5000x256 (shapeCast S1x256 x4 shapeCasts_S1x256_S1x256) broadcasts_S1x256_S5000x256 (ix2 p q)) _ = _
  rw [matmul128_apply, matmul128_apply, broadcastTo_1b_ab_apply, shapeCast_self, shapeCast_self]
  rfl

/-- Region 1's stored block at `(p, q)`: the layer-2 expression of rows `p` of its two feature blocks. -/
theorem stored2_apply (x0 x1 : Vec Ideal S5000x256 .f32) (x2 x3 : Vec Ideal S40x256 .f32) (x4 : Vec Ideal S1x40 .f32)
    (p : Fin 5000) (q : Fin 40) :
    k1_pay1 (F := Ideal) x0 x1 x2 x3 x4 (ix2 p q)
      = (∑ k : Fin 256, x0 (ix2 p k) * x2 (ix2 q k)) + (∑ k : Fin 256, x1 (ix2 p k) * x3 (ix2 q k)) + x4 (ix2 (0 : Fin 1) q) := by
  unfold k1_pay1
  show (matmul dot_S5000x256_S40x256_S5000x40_1_1_0_0_n_n none _ _ (constant (F := Ideal) S5000x40 .f32 0x00000000#32) (ix2 p q)
      + matmul dot_S5000x256_S40x256_S5000x40_1_1_0_0_n_n none _ _ (constant (F := Ideal) S5000x40 .f32 0x00000000#32) (ix2 p q))
      + broadcastTo S5000x40 (shapeCast S1x40 x4 shapeCasts_S1x40_S1x40) broadcasts_S1x40_S5000x40 (ix2 p q) = _
  rw [matmul256_apply, matmul256_apply, broadcastTo_1b_ab_apply, shapeCast_self, shapeCast_self, shapeCast_self]
  rfl

end Cert.Sage

end
-- ==== Proof.Region0.lean ====
/-
  Region 0 of the kernel's program as ONE function of the arrays it finds at entry.

  The grid has 20 points; point `t` stages rows `5000·t … 5000·t + 4999` of the two feature arrays, the two weight
  matrices and the bias row whole, and writes back rows `5000·t … 5000·t + 4999` of the output. What it writes at row
  `p` of the block depends only on row `5000·t + p` of the features: so each written block is the block of the layer
  function of the WHOLE arrays, and the twenty blocks tile the output's rows.
-/
import proofs.«118997_j7962869367673_1_alg».proof.Proof.Gen.KernelIdeal.Frame
import proofs.«118997_j7962869367673_1_alg».proof.Proof.Layer

set_option maxRecDepth 16384

noncomputable section

namespace Cert.Sage.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the feature windows and the output window move down the rows with the point, the
    weights and the bias stay. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s blocks is row `5000·t + p` of the arrays. -/
def row (t : Fin cfg0.N) (p : Fin 5000) : Fin 100000 :=
  ⟨t.val * 5000 + p.val, by have := t.isLt; have := p.isLt; have hN : cfg0.N = 20 := rfl; omega⟩

/-! ## The blocks read where the arrays are -/

theorem blk0 (c : Dev nD) (t : Fin cfg0.N) (p : Fin 5000) (k : Fin 128) :
    iblk0 V c 0 t (ix2 p k) = V c main_arg0 (ix2 (row t p) k) := by
  obtain ⟨e00, e01, -⟩ := index_maps t
  show V c main_arg0 (((cfg0.win 0).blk t).view.emb (ix2 p k)) = V c main_arg0 (ix2 (row t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk1 (c : Dev nD) (t : Fin cfg0.N) (p : Fin 5000) (k : Fin 128) :
    iblk0 V c 1 t (ix2 p k) = V c main_v18 (ix2 (row t p) k) := by
  obtain ⟨-, -, e10, e11, -⟩ := index_maps t
  show V c main_v18 (((cfg0.win 1).blk t).view.emb (ix2 p k)) = V c main_v18 (ix2 (row t p) k)
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem blk2 (c : Dev nD) (t : Fin cfg0.N) (q : Fin 256) (k : Fin 128) :
    iblk0 V c 2 t (ix2 q k) = V c main_arg5 (ix2 q k) := by
  obtain ⟨-, -, -, -, e20, e21, -⟩ := index_maps t
  show V c main_arg5 (((cfg0.win 2).blk t).view.emb (ix2 q k)) = V c main_arg5 (ix2 q k)
  refine congrArg _ (funext fun a => Fin.ext ?_)
  match a with
  | ⟨0, _⟩ => show win0_2.index t (0 : Fin 2) * 256 + 1 * q.val = q.val; omega
  | ⟨1, _⟩ => show win0_2.index t (1 : Fin 2) * 128 + 1 * k.val = k.val; omega

theorem blk3 (c : Dev nD) (t : Fin cfg0.N) (q : Fin 256) (k : Fin 128) :
    iblk0 V c 3 t (ix2 q k) = V c main_arg6 (ix2 q k) := by
  obtain ⟨-, -, -, -, -, -, e30, e31, -⟩ := index_maps t
  show V c main_arg6 (((cfg0.win 3).blk t).view.emb (ix2 q k)) = V c main_arg6 (ix2 q k)
  refine congrArg _ (funext fun a => Fin.ext ?_)
  match a with
  | ⟨0, _⟩ => show win0_3.index t (0 : Fin 2) * 256 + 1 * q.val = q.val; omega
  | ⟨1, _⟩ => show win0_3.index t (1 : Fin 2) * 128 + 1 * k.val = k.val; omega

theorem blk4 (c : Dev nD) (t : Fin cfg0.N) (q : Fin 256) :
    iblk0 V c 4 t (ix2 (0 : Fin 1) q) = V c main_v19 (ix2 (0 : Fin 1) q) := by
  obtain ⟨-, -, -, -, -, -, -, -, e40, e41, -⟩ := index_maps t
  show V c main_v19 (((cfg0.win 4).blk t).view.emb (ix2 (0 : Fin 1) q)) = V c main_v19 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * q.val = q.val; omega

theorem blk5 (t : Fin cfg0.N) (p : Fin 5000) (q : Fin 256) :
    ((cfg0.win 5).blk t).view.emb (ix2 p q) = ix2 (row t p) q := by
  obtain ⟨-, -, -, -, -, -, -, -, -, -, e50, e51⟩ := index_maps t
  refine funext fun a => Fin.ext ?_
  match a with
  | ⟨0, _⟩ => show win0_5.index t (0 : Fin 2) * 5000 + 1 * p.val = t.val * 5000 + p.val; omega
  | ⟨1, _⟩ => show win0_5.index t (1 : Fin 2) * 256 + 1 * q.val = q.val; omega

/-! ## What a point writes back -/

/-- Point `t` writes back block `t` of the layer function of the entry arrays. -/
theorem flushed_eq (c : Dev nD) (t : Fin cfg0.N) :
    (dat0 V c).flushed 5 t = ((cfg0.win 5).blk t).view.read (Elt Ideal)
      (layer1 (V c main_arg0) (V c main_v18) (V c main_arg5) (V c main_arg6) (V c main_v19)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S256x128) zero_offsets,
    View.ld_unit_zero (S := S1x256) zero_offsets]
  funext (j : S5000x256.Idx)
  obtain ⟨p, q, rfl⟩ : ∃ (p : Fin 5000) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = layer1 (V c main_arg0) (V c main_v18) (V c main_arg5) (V c main_arg6) (V c main_v19) (((cfg0.win 5).blk t).view.emb (ix2 p q))
  rw [blk5 t p q]
  refine (stored1_apply (iblk0 V c 0 t) (iblk0 V c 1 t) (iblk0 V c 2 t) (iblk0 V c 3 t) (iblk0 V c 4 t) p q).trans ?_
  show _ = layer1At (V c main_arg0) (V c main_v18) (V c main_arg5) (V c main_arg6) (V c main_v19) (row t p) q
  unfold layer1At
  simp only [blk0 V c t p, blk1 V c t p, blk2 V c t q, blk3 V c t q, blk4 V c t q]

/-! ## The blocks tile the output -/

theorem mem_blk (t : Fin cfg0.N) (i : S100000x256.Idx) :
    i ∈ ((cfg0.win 5).blk t).view.set ↔ ∀ a : Fin 2, win0_5.index t a * S5000x256.size a ≤ (i a).val
      ∧ (i a).val < win0_5.index t a * S5000x256.size a + S5000x256.size a := by
  show i ∈ ((View.whole main_v20).slice (win0_5.rect t)).set ↔ _
  rw [View.set_slice_whole, Rect.mem_set_unit]
  exact Iff.rfl

/-- Row `r` of the output is written by point `r / 5000`. -/
theorem cover (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  have hN : cfg0.N = 20 := rfl
  let t : Fin cfg0.N := ⟨(i 0).val / 5000, by omega⟩
  have htv : t.val = (i 0).val / 5000 := rfl
  obtain ⟨-, -, -, -, -, -, -, -, -, -, e50, e51⟩ := index_maps t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 256 ≤ (i 1).val ∧ (i 1).val < win0_5.index t (1 : Fin 2) * 256 + 256; omega

/-- After the region its output array is the layer function of the arrays it found at entry. -/
theorem final (c : Dev nD) :
    (dat0 V c).arrAt 5 cfg0.N
      = layer1 (V c main_arg0) (V c main_v18) (V c main_arg5) (V c main_arg6) (V c main_v19) :=
  (dat0 V c).arrAt_eq_of_cover 5 _ (fun t _ => flushed_eq V c t) cover

end Cert.Sage.Region0

end
-- ==== Proof.Region1.lean ====
/-
  Region 1 of the kernel's program as ONE function of the arrays it finds at entry.

  The grid has 20 points; point `t` stages rows `5000·t … 5000·t + 4999` of the two feature arrays, the two weight
  matrices and the bias row whole, and writes back rows `5000·t … 5000·t + 4999` of the output. What it writes at row
  `p` of the block depends only on row `5000·t + p` of the features: so each written block is the block of the layer
  function of the WHOLE arrays, and the twenty blocks tile the output's rows.
-/
import proofs.«118997_j7962869367673_1_alg».proof.Proof.Gen.KernelIdeal.Frame
import proofs.«118997_j7962869367673_1_alg».proof.Proof.Layer

set_option maxRecDepth 16384

noncomputable section

namespace Cert.Sage.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the feature windows and the output window move down the rows with the point, the
    weights and the bias stay. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s blocks is row `5000·t + p` of the arrays. -/
def row (t : Fin cfg1.N) (p : Fin 5000) : Fin 100000 :=
  ⟨t.val * 5000 + p.val, by have := t.isLt; have := p.isLt; have hN : cfg1.N = 20 := rfl; omega⟩

/-! ## The blocks read where the arrays are -/

theorem blk0 (c : Dev nD) (t : Fin cfg1.N) (p : Fin 5000) (k : Fin 256) :
    iblk1 V c 0 t (ix2 p k) = V c main_v20 (ix2 (row t p) k) := by
  obtain ⟨e00, e01, -⟩ := index_maps t
  show V c main_v20 (((cfg1.win 0).blk t).view.emb (ix2 p k)) = V c main_v20 (ix2 (row t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 256 + 1 * k.val = k.val; omega

theorem blk1 (c : Dev nD) (t : Fin cfg1.N) (p : Fin 5000) (k : Fin 256) :
    iblk1 V c 1 t (ix2 p k) = V c main_v39 (ix2 (row t p) k) := by
  obtain ⟨-, -, e10, e11, -⟩ := index_maps t
  show V c main_v39 (((cfg1.win 1).blk t).view.emb (ix2 p k)) = V c main_v39 (ix2 (row t p) k)
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 256 + 1 * k.val = k.val; omega

theorem blk2 (c : Dev nD) (t : Fin cfg1.N) (q : Fin 40) (k : Fin 256) :
    iblk1 V c 2 t (ix2 q k) = V c main_arg8 (ix2 q k) := by
  obtain ⟨-, -, -, -, e20, e21, -⟩ := index_maps t
  show V c main_arg8 (((cfg1.win 2).blk t).view.emb (ix2 q k)) = V c main_arg8 (ix2 q k)
  refine congrArg _ (funext fun a => Fin.ext ?_)
  match a with
  | ⟨0, _⟩ => show win1_2.index t (0 : Fin 2) * 40 + 1 * q.val = q.val; omega
  | ⟨1, _⟩ => show win1_2.index t (1 : Fin 2) * 256 + 1 * k.val = k.val; omega

theorem blk3 (c : Dev nD) (t : Fin cfg1.N) (q : Fin 40) (k : Fin 256) :
    iblk1 V c 3 t (ix2 q k) = V c main_arg9 (ix2 q k) := by
  obtain ⟨-, -, -, -, -, -, e30, e31, -⟩ := index_maps t
  show V c main_arg9 (((cfg1.win 3).blk t).view.emb (ix2 q k)) = V c main_arg9 (ix2 q k)
  refine congrArg _ (funext fun a => Fin.ext ?_)
  match a with
  | ⟨0, _⟩ => show win1_3.index t (0 : Fin 2) * 40 + 1 * q.val = q.val; omega
  | ⟨1, _⟩ => show win1_3.index t (1 : Fin 2) * 256 + 1 * k.val = k.val; omega

theorem blk4 (c : Dev nD) (t : Fin cfg1.N) (q : Fin 40) :
    iblk1 V c 4 t (ix2 (0 : Fin 1) q) = V c main_v40 (ix2 (0 : Fin 1) q) := by
  obtain ⟨-, -, -, -, -, -, -, -, e40, e41, -⟩ := index_maps t
  show V c main_v40 (((cfg1.win 4).blk t).view.emb (ix2 (0 : Fin 1) q)) = V c main_v40 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 40 + 1 * q.val = q.val; omega

theorem blk5 (t : Fin cfg1.N) (p : Fin 5000) (q : Fin 40) :
    ((cfg1.win 5).blk t).view.emb (ix2 p q) = ix2 (row t p) q := by
  obtain ⟨-, -, -, -, -, -, -, -, -, -, e50, e51⟩ := index_maps t
  refine funext fun a => Fin.ext ?_
  match a with
  | ⟨0, _⟩ => show win1_5.index t (0 : Fin 2) * 5000 + 1 * p.val = t.val * 5000 + p.val; omega
  | ⟨1, _⟩ => show win1_5.index t (1 : Fin 2) * 40 + 1 * q.val = q.val; omega

/-! ## What a point writes back -/

/-- Point `t` writes back block `t` of the layer function of the entry arrays. -/
theorem flushed_eq (c : Dev nD) (t : Fin cfg1.N) :
    (dat1 V c).flushed 5 t = ((cfg1.win 5).blk t).view.read (Elt Ideal)
      (layer2 (V c main_v20) (V c main_v39) (V c main_arg8) (V c main_arg9) (V c main_v40)) := by
  show (cfg1.win 5).cut (grid1.coords t) ((dat1 V c).after 5 t) = _
  rw [after1_5]
  unfold out1_5
  rw [View.canon_unit_zero zero_offsets]
  simp only [View.ld_unit_zero (S := S5000x256) zero_offsets, View.ld_unit_zero (S := S40x256) zero_offsets,
    View.ld_unit_zero (S := S1x40) zero_offsets]
  funext (j : S5000x40.Idx)
  obtain ⟨p, q, rfl⟩ : ∃ (p : Fin 5000) (q : Fin 40), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = layer2 (V c main_v20) (V c main_v39) (V c main_arg8) (V c main_arg9) (V c main_v40) (((cfg1.win 5).blk t).view.emb (ix2 p q))
  rw [blk5 t p q]
  refine (stored2_apply (iblk1 V c 0 t) (iblk1 V c 1 t) (iblk1 V c 2 t) (iblk1 V c 3 t) (iblk1 V c 4 t) p q).trans ?_
  show _ = layer2At (V c main_v20) (V c main_v39) (V c main_arg8) (V c main_arg9) (V c main_v40) (row t p) q
  unfold layer2At
  simp only [blk0 V c t p, blk1 V c t p, blk2 V c t q, blk3 V c t q, blk4 V c t q]

/-! ## The blocks tile the output -/

theorem mem_blk (t : Fin cfg1.N) (i : S100000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v41).slice (win1_5.rect t)).set ↔ _
  rw [View.set_slice_whole, Rect.mem_set_unit]
  exact Iff.rfl

/-- Row `r` of the output is written by point `r / 5000`. -/
theorem cover (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  have hN : cfg1.N = 20 := rfl
  let t : Fin cfg1.N := ⟨(i 0).val / 5000, by omega⟩
  have htv : t.val = (i 0).val / 5000 := rfl
  obtain ⟨-, -, -, -, -, -, -, -, -, -, e50, e51⟩ := index_maps t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 40 ≤ (i 1).val ∧ (i 1).val < win1_5.index t (1 : Fin 2) * 40 + 40; omega

/-- After the region its output array is the layer function of the arrays it found at entry. -/
theorem final (c : Dev nD) :
    (dat1 V c).arrAt 5 cfg1.N
      = layer2 (V c main_v20) (V c main_v39) (V c main_arg8) (V c main_arg9) (V c main_v40) :=
  (dat1 V c).arrAt_eq_of_cover 5 _ (fun t _ => flushed_eq V c t) cover

end Cert.Sage.Region1

end
-- ==== Proof.Mean.lean ====
/-
  The mean of each node's in-neighbours' rows, as ONE function of a feature array and two edge lists.

  For edges `e` with source `src e` and destination `dst e`: gather the source rows (a negative source index counted
  from the end), add each gathered row into its destination's row of a zero array, count each destination's edges the same
  way, and divide every row by its count, a count of zero taken as one. Both programs apply exactly these host
  operations, to the input features in the first layer and to the first layer's output in the second: the proof never
  opens them, it only names them.
-/
import proofs.«118997_j7962869367673_1_alg».proof.Proof.Gen.KernelIdeal

noncomputable section

namespace Cert.Sage

open Idealize.ShloMosaic Cert.KernelIdeal Cert.KernelIdeal.Gen

variable {F : FTy → Type} [FloatOps F]

/-- The neighbour mean of rows of 128 features. -/
def meanNbr128 (x : (⟨S100000x128, .f32⟩ : BufTy).Contents (Elt F)) (src dst : (⟨S600000, .i32⟩ : BufTy).Contents (Elt F)) :
    (⟨S100000x128, .f32⟩ : BufTy).Contents (Elt F) :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 dst)
      (Host.gather gather_S100000x128_S600000x1_S600000x128_1_0_n_n_0_1_1128 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32)))
            src))))
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 dst)
            (broadcastInDim S600000 ![] bcast_S_S600000 (constant S_ .f32 0x3F800000#32)))
          (broadcastInDim S100000 ![] bcast_S_S100000 (constant S_ .f32 0x3F800000#32)))))

/-- The neighbour mean of rows of 256 features. -/
def meanNbr256 (x : (⟨S100000x256, .f32⟩ : BufTy).Contents (Elt F)) (src dst : (⟨S600000, .i32⟩ : BufTy).Contents (Elt F)) :
    (⟨S100000x256, .f32⟩ : BufTy).Contents (Elt F) :=
  Host.divf
    (Host.scatterAdd scatter_S100000x256_S600000x1_S600000x256_1_0_0_1
      (broadcastInDim S100000x256 ![] bcast_S_S100000x256 (constant S_ .f32 0x00000000#32))
      (broadcastInDim S600000x1 ![0] bcast_S600000_S600000x1_0 dst)
      (Host.gather gather_S100000x256_S600000x1_S600000x256_1_0_n_n_0_1_1256 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32)))
            src))))
    (broadcastInDim S100000x256 ![0, 1] bcast_S100000x1_S100000x256_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 dst)
            (broadcastInDim S600000 ![] bcast_S_S600000 (constant S_ .f32 0x3F800000#32)))
          (broadcastInDim S100000 ![] bcast_S_S100000 (constant S_ .f32 0x3F800000#32)))))

end Cert.Sage

end
-- ==== Proof.Net.lean ====
/-
  The whole network as ONE function of the eleven arguments, on the extended reals.

  hidden = max(0, x·Ws₁ᵀ + mean₁(x)·Wn₁ᵀ + b₁),   out = hidden·Ws₂ᵀ + mean₂(hidden)·Wn₂ᵀ + b₂,
  where `meanᵢ` is the neighbour mean over the i-th edge list, and a bias vector enters as a one-row matrix.
-/
import proofs.«118997_j7962869367673_1_alg».proof.Proof.Layer
import proofs.«118997_j7962869367673_1_alg».proof.Proof.Mean

noncomputable section

namespace Cert.Sage

open Idealize.ShloMosaic Cert.KernelIdeal Cert.KernelIdeal.Gen

/-- The first layer's output: one row of 256 hidden features per node. -/
def hidden (x : (⟨S100000x128, .f32⟩ : BufTy).Contents (Elt Ideal)) (s1 d1 : (⟨S600000, .i32⟩ : BufTy).Contents (Elt Ideal))
    (w5 w6 : (⟨S256x128, .f32⟩ : BufTy).Contents (Elt Ideal)) (b7 : (⟨S256, .f32⟩ : BufTy).Contents (Elt Ideal)) :
    (⟨S100000x256, .f32⟩ : BufTy).Contents (Elt Ideal) :=
  layer1 x (meanNbr128 x s1 d1) w5 w6 (shapeCast S1x256 b7 shapeCasts_S256_S1x256)

/-- The network's output: one row of 40 values per node. -/
def net (x : (⟨S100000x128, .f32⟩ : BufTy).Contents (Elt Ideal)) (s1 d1 s2 d2 : (⟨S600000, .i32⟩ : BufTy).Contents (Elt Ideal))
    (w5 w6 : (⟨S256x128, .f32⟩ : BufTy).Contents (Elt Ideal)) (b7 : (⟨S256, .f32⟩ : BufTy).Contents (Elt Ideal))
    (w8 w9 : (⟨S40x256, .f32⟩ : BufTy).Contents (Elt Ideal)) (b10 : (⟨S40, .f32⟩ : BufTy).Contents (Elt Ideal)) :
    (⟨S100000x40, .f32⟩ : BufTy).Contents (Elt Ideal) :=
  layer2 (hidden x s1 d1 w5 w6 b7) (meanNbr256 (hidden x s1 d1 w5 w6 b7) s2 d2) w8 w9 (shapeCast S1x40 b10 shapeCasts_S40_S1x40)

end Cert.Sage

end
-- ==== Proof.KernelValue.lean ====
/-
  The kernel's result, after the run, is the network function of the arguments as launched.

  Reading back through the four stretches: the second grid's output array is layer 2 of the arrays it finds at entry;
  of those the features are what the first grid left (layer 1 of ITS entry arrays), the neighbour mean is the second
  stretch of host operations applied to them, the weights are the arguments untouched and the bias row the argument
  reshaped; and the first grid's entry arrays are the arguments and the first stretch's neighbour mean and reshaped bias.
-/
import proofs.«118997_j7962869367673_1_alg».proof.Proof.Gen.KernelIdeal.Frame
import proofs.«118997_j7962869367673_1_alg».proof.Proof.Region0
import proofs.«118997_j7962869367673_1_alg».proof.Proof.Region1
import proofs.«118997_j7962869367673_1_alg».proof.Proof.Net
import Idealize.ShloMosaic.Lib.StableHlo.Run

set_option maxRecDepth 16384

noncomputable section

namespace Cert.Sage.KernelValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## What the first grid finds at entry -/

set_option maxHeartbeats 4000000 in
theorem entry0_x (c : Dev nD) : V1 m ρ c main_arg0 = m ((c : Thread nD τ).loc main_arg0) := by
  show StableHlo.after hostOps0 (W0 m ρ c) (Proc.devRef .tc main_arg0) = _
  after_results_simp

set_option maxHeartbeats 4000000 in
theorem entry0_ws (c : Dev nD) : V1 m ρ c main_arg5 = m ((c : Thread nD τ).loc main_arg5) := by
  show StableHlo.after hostOps0 (W0 m ρ c) (Proc.devRef .tc main_arg5) = _
  after_results_simp

set_option maxHeartbeats 4000000 in
theorem entry0_wn (c : Dev nD) : V1 m ρ c main_arg6 = m ((c : Thread nD τ).loc main_arg6) := by
  show StableHlo.after hostOps0 (W0 m ρ c) (Proc.devRef .tc main_arg6) = _
  after_results_simp

set_option maxHeartbeats 4000000 in
/-- The neighbour mean the first grid reads is the first stretch's chain of the arguments. -/
theorem entry0_mean (c : Dev nD) :
    V1 m ρ c main_v18 = meanNbr128 (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

set_option maxHeartbeats 4000000 in
/-- The bias row the first grid reads is the bias vector as a one-row matrix. -/
theorem entry0_bias (c : Dev nD) :
    V1 m ρ c main_v19 = shapeCast S1x256 (m ((c : Thread nD τ).loc main_arg7)) shapeCasts_S256_S1x256 := by
  show StableHlo.after hostOps0 (W0 m ρ c) (Proc.devRef .tc main_v19) = _
  after_results_simp
  rfl

/-- After the first grid its output array holds the hidden features of the arguments. -/
theorem hidden_eq (c : Dev nD) :
    W2 m ρ c (Proc.devRef .tc main_v20) = hidden (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  refine (W2_arr m ρ c 5).trans ((Region0.final (V1 m ρ) c).trans ?_)
  rw [entry0_x m ρ c, entry0_mean m ρ c, entry0_ws m ρ c, entry0_wn m ρ c, entry0_bias m ρ c]
  rfl

/-! ## The arguments the second half reads are still as launched after the first grid -/

set_option maxHeartbeats 4000000 in
theorem mid_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results_simp

set_option maxHeartbeats 4000000 in
theorem mid_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results_simp

set_option maxHeartbeats 4000000 in
theorem mid_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp

set_option maxHeartbeats 4000000 in
theorem mid_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results_simp

set_option maxHeartbeats 4000000 in
theorem mid_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results_simp

/-! ## What the second grid finds at entry -/

set_option maxHeartbeats 4000000 in
theorem entry1_x (c : Dev nD) : V3 m ρ c main_v20 = W2 m ρ c (Proc.devRef .tc main_v20) := by
  show StableHlo.after hostOps1 (W2 m ρ c) (Proc.devRef .tc main_v20) = _
  after_results_simp

set_option maxHeartbeats 4000000 in
theorem entry1_ws (c : Dev nD) : V3 m ρ c main_arg8 = W2 m ρ c (Proc.devRef .tc main_arg8) := by
  show StableHlo.after hostOps1 (W2 m ρ c) (Proc.devRef .tc main_arg8) = _
  after_results_simp

set_option maxHeartbeats 4000000 in
theorem entry1_wn (c : Dev nD) : V3 m ρ c main_arg9 = W2 m ρ c (Proc.devRef .tc main_arg9) := by
  show StableHlo.after hostOps1 (W2 m ρ c) (Proc.devRef .tc main_arg9) = _
  after_results_simp

set_option maxHeartbeats 4000000 in
/-- The neighbour mean the second grid reads is the second stretch's chain of the first grid's output. -/
theorem entry1_mean (c : Dev nD) :
    V3 m ρ c main_v39 = meanNbr256 (W2 m ρ c (Proc.devRef .tc main_v20)) (W2 m ρ c (Proc.devRef .tc main_arg3))
      (W2 m ρ c (Proc.devRef .tc main_arg4)) := by
  show StableHlo.after hostOps1 (W2 m ρ c) (Proc.devRef .tc main_v39) = _
  after_results_simp
  rfl

set_option maxHeartbeats 4000000 in
theorem entry1_bias (c : Dev nD) :
    V3 m ρ c main_v40 = shapeCast S1x40 (W2 m ρ c (Proc.devRef .tc main_arg10)) shapeCasts_S40_S1x40 := by
  show StableHlo.after hostOps1 (W2 m ρ c) (Proc.devRef .tc main_v40) = _
  after_results_simp
  rfl

/-! ## The result -/

/-- The result buffer's final contents are the network function of the arguments. -/
theorem result_eq (c : Dev nD) :
    W4 m ρ c (Proc.devRef .tc main_v41)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ((Region1.final (V3 m ρ) c).trans ?_)
  rw [entry1_x m ρ c, entry1_mean m ρ c, entry1_ws m ρ c, entry1_wn m ρ c, entry1_bias m ρ c,
    hidden_eq m ρ c, mid_arg3 m ρ c, mid_arg4 m ρ c, mid_arg8 m ρ c, mid_arg9 m ρ c, mid_arg10 m ρ c]
  rfl

end Cert.Sage.KernelValue

end
-- ==== Proof.RefValue.lean ====
/-
  The reference's result is the same network function of its arguments.

  The reference computes each layer on whole arrays: it transposes a weight matrix and contracts the features' second
  axis with the transposed matrix's first, which at node `r`, channel `q` is the same sum ∑ₖ X[r,k]·W[q,k]; it
  broadcasts the bias vector over the rows where the kernel adds a one-row matrix; its maximum with zero and its
  neighbour means are the kernel's host operations themselves. Entry by entry the two sides are one expression.
-/
import proofs.«118997_j7962869367673_1_alg».proof.Proof.Gen.ReferenceIdeal.Read
import proofs.«118997_j7962869367673_1_alg».proof.Proof.Net

noncomputable section

namespace Cert.Sage.RefValue

open Cert.ReferenceIdeal Cert.ReferenceIdeal.Gen Cert.ReferenceIdeal.Read
open Idealize.ShloMosaic Idealize.ShloMosaic.ValueIdx

/-! ## The reference's operand indices, in coordinates -/

theorem self1_lhs (r : Fin 100000) (q : Fin 256) (k : Fin 128) : lidx_main_v20 (ix2 r q) k = ix2 r k := funext fun a => Fin.ext (by match a with | ⟨0, _⟩ => rfl | ⟨1, _⟩ => rfl)
theorem self1_rhs (r : Fin 100000) (q : Fin 256) (k : Fin 128) : idx_main_v19 (ridx_main_v20 (ix2 r q) k) = ix2 q k := funext fun a => Fin.ext (by match a with | ⟨0, _⟩ => rfl | ⟨1, _⟩ => rfl)
theorem nbr1_lhs (r : Fin 100000) (q : Fin 256) (k : Fin 128) : lidx_main_v22 (ix2 r q) k = ix2 r k := funext fun a => Fin.ext (by match a with | ⟨0, _⟩ => rfl | ⟨1, _⟩ => rfl)
theorem nbr1_rhs (r : Fin 100000) (q : Fin 256) (k : Fin 128) : idx_main_v21 (ridx_main_v22 (ix2 r q) k) = ix2 q k := funext fun a => Fin.ext (by match a with | ⟨0, _⟩ => rfl | ⟨1, _⟩ => rfl)
theorem bias1_idx (r : Fin 100000) (q : Fin 256) : idx_main_v24 (idx_main_v25 (ix2 r q)) = ix1 q :=
  funext fun a => Fin.ext (by match a with | ⟨0, _⟩ => rfl)
theorem self2_lhs (r : Fin 100000) (q : Fin 40) (k : Fin 256) : lidx_main_v48 (ix2 r q) k = ix2 r k := funext fun a => Fin.ext (by match a with | ⟨0, _⟩ => rfl | ⟨1, _⟩ => rfl)
theorem self2_rhs (r : Fin 100000) (q : Fin 40) (k : Fin 256) : idx_main_v47 (ridx_main_v48 (ix2 r q) k) = ix2 q k := funext fun a => Fin.ext (by match a with | ⟨0, _⟩ => rfl | ⟨1, _⟩ => rfl)
theorem nbr2_lhs (r : Fin 100000) (q : Fin 40) (k : Fin 256) : lidx_main_v50 (ix2 r q) k = ix2 r k := funext fun a => Fin.ext (by match a with | ⟨0, _⟩ => rfl | ⟨1, _⟩ => rfl)
theorem nbr2_rhs (r : Fin 100000) (q : Fin 40) (k : Fin 256) : idx_main_v49 (ridx_main_v50 (ix2 r q) k) = ix2 q k := funext fun a => Fin.ext (by match a with | ⟨0, _⟩ => rfl | ⟨1, _⟩ => rfl)
theorem bias2_idx (r : Fin 100000) (q : Fin 40) : idx_main_v52 (idx_main_v53 (ix2 r q)) = ix1 q :=
  funext fun a => Fin.ext (by match a with | ⟨0, _⟩ => rfl)

/-! ## The network function at an entry -/

theorem hidden_apply (x0 : (⟨S100000x128, .f32⟩ : BufTy).Contents (Elt Ideal)) (x1 x2 : (⟨S600000, .i32⟩ : BufTy).Contents (Elt Ideal)) (x5 x6 : (⟨S256x128, .f32⟩ : BufTy).Contents (Elt Ideal)) (x7 : (⟨S256, .f32⟩ : BufTy).Contents (Elt Ideal)) (r : Fin 100000) (q : Fin 256) :
    hidden x0 x1 x2 x5 x6 x7 (ix2 r q)
      = max ((∑ k : Fin 128, x0 (ix2 r k) * x5 (ix2 q k)) + (∑ k : Fin 128, meanNbr128 x0 x1 x2 (ix2 r k) * x6 (ix2 q k)) + x7 (ix1 q))
          (Ideal.ofBits .f32 0x00000000#32) := by
  show layer1At x0 (meanNbr128 x0 x1 x2) x5 x6 (shapeCast _ x7 _) r q = _
  unfold layer1At
  rw [shapeCast_a_1a_apply]

theorem net_apply (x0 : (⟨S100000x128, .f32⟩ : BufTy).Contents (Elt Ideal)) (x1 x2 x3 x4 : (⟨S600000, .i32⟩ : BufTy).Contents (Elt Ideal)) (x5 x6 : (⟨S256x128, .f32⟩ : BufTy).Contents (Elt Ideal)) (x7 : (⟨S256, .f32⟩ : BufTy).Contents (Elt Ideal)) (x8 x9 : (⟨S40x256, .f32⟩ : BufTy).Contents (Elt Ideal)) (x10 : (⟨S40, .f32⟩ : BufTy).Contents (Elt Ideal))
    (r : Fin 100000) (q : Fin 40) :
    net x0 x1 x2 x3 x4 x5 x6 x7 x8 x9 x10 (ix2 r q)
      = (∑ k : Fin 256, hidden x0 x1 x2 x5 x6 x7 (ix2 r k) * x8 (ix2 q k))
        + (∑ k : Fin 256, meanNbr256 (hidden x0 x1 x2 x5 x6 x7) x3 x4 (ix2 r k) * x9 (ix2 q k)) + x10 (ix1 q) := by
  show layer2At (hidden x0 x1 x2 x5 x6 x7) (meanNbr256 (hidden x0 x1 x2 x5 x6 x7) x3 x4) x8 x9 (shapeCast _ x10 _) r q = _
  unfold layer2At
  rw [shapeCast_a_1a_apply]

/-! ## The reference's stages -/

/-- The reference's first neighbour mean is the shared chain. -/
theorem mean1_eq (x0 : (⟨S100000x128, .f32⟩ : BufTy).Contents (Elt Ideal)) (x1 x2 : (⟨S600000, .i32⟩ : BufTy).Contents (Elt Ideal)) : val_main_v18 (F := Ideal) x0 x1 x2 = meanNbr128 x0 x1 x2 := rfl

/-- The reference's hidden features are the network's. -/
theorem hidden_eq (x0 : (⟨S100000x128, .f32⟩ : BufTy).Contents (Elt Ideal)) (x1 x2 : (⟨S600000, .i32⟩ : BufTy).Contents (Elt Ideal)) (x5 x6 : (⟨S256x128, .f32⟩ : BufTy).Contents (Elt Ideal)) (x7 : (⟨S256, .f32⟩ : BufTy).Contents (Elt Ideal)) :
    val_main_v27 (F := Ideal) x0 x1 x2 x5 x6 x7 = hidden x0 x1 x2 x5 x6 x7 := by
  funext i
  obtain ⟨r, q, rfl⟩ : ∃ (r : Fin 100000) (q : Fin 256), i = ix2 r q := ⟨i 0, i 1, eq_ix2 i⟩
  rw [hidden_apply, val_main_v27_apply, val_main_v26_apply, val_main_v23_apply, val_main_v20_apply, val_main_v22_apply,
    val_main_v25_apply, val_main_v24_apply, val_main_call0_v0_apply, val_main_call0_cst_apply]
  simp only [val_main_v19_apply, val_main_v21_apply, self1_lhs, self1_rhs, nbr1_lhs, nbr1_rhs, bias1_idx, mean1_eq]
  rfl

/-- The reference's second neighbour mean is the shared chain of its hidden features. -/
theorem mean2_eq (x0 : (⟨S100000x128, .f32⟩ : BufTy).Contents (Elt Ideal)) (x1 x2 x3 x4 : (⟨S600000, .i32⟩ : BufTy).Contents (Elt Ideal)) (x5 x6 : (⟨S256x128, .f32⟩ : BufTy).Contents (Elt Ideal)) (x7 : (⟨S256, .f32⟩ : BufTy).Contents (Elt Ideal)) :
    val_main_v46 (F := Ideal) x0 x1 x2 x3 x4 x5 x6 x7 = meanNbr256 (val_main_v27 (F := Ideal) x0 x1 x2 x5 x6 x7) x3 x4 := rfl

/-- The reference's result is the network function of its arguments. -/
theorem result_eq (x0 : (⟨S100000x128, .f32⟩ : BufTy).Contents (Elt Ideal)) (x1 x2 x3 x4 : (⟨S600000, .i32⟩ : BufTy).Contents (Elt Ideal)) (x5 x6 : (⟨S256x128, .f32⟩ : BufTy).Contents (Elt Ideal)) (x7 : (⟨S256, .f32⟩ : BufTy).Contents (Elt Ideal)) (x8 x9 : (⟨S40x256, .f32⟩ : BufTy).Contents (Elt Ideal)) (x10 : (⟨S40, .f32⟩ : BufTy).Contents (Elt Ideal)) :
    val_main_v54 (F := Ideal) x0 x1 x2 x3 x4 x5 x6 x7 x8 x9 x10 = net x0 x1 x2 x3 x4 x5 x6 x7 x8 x9 x10 := by
  funext i
  obtain ⟨r, q, rfl⟩ : ∃ (r : Fin 100000) (q : Fin 40), i = ix2 r q := ⟨i 0, i 1, eq_ix2 i⟩
  rw [net_apply, val_main_v54_apply, val_main_v51_apply, val_main_v48_apply, val_main_v50_apply, val_main_v53_apply,
    val_main_v52_apply]
  simp only [val_main_v47_apply, val_main_v49_apply, self2_lhs, self2_rhs, nbr2_lhs, nbr2_rhs, bias2_idx, mean2_eq, hidden_eq]
  rfl

end Cert.Sage.RefValue

end
-- ==== Proof.lean ====
/-
  A two-layer neighbour-mean graph network: the tiled kernel against the whole-array reference, on the extended reals.

  Each layer maps node features X to  X·Wsᵀ + mean(X)·Wnᵀ + b, the first followed by a maximum with zero, where mean(X)
  is the mean of each node's in-neighbours' rows. The kernel's program computes mean(X) by host operations, then runs a
  grid of twenty points, each producing 5000 rows of the layer from 5000 rows of X and of mean(X) by two matrix
  products into zero accumulators; the reference computes the same host operations and two whole matrix products.

  On the extended reals a matrix product is a finite sum over the contracted axis and the roundings to bf16 in front of
  the kernel's products are the identity, so a row of the kernel's block and the same row of the reference's product are
  one sum, term by term; the twenty row blocks tile the output; and the neighbour mean is the same function on both
  sides, applied to equal arrays. No law of arithmetic beyond that is used, so the finiteness of the inputs is not
  needed for the value: both results are the function `Cert.Sage.net` of the arguments.

  The idealization rewrote no operation of the kernel, so there is nothing to preserve; the kernel's two frames are the
  generated ones, the reference's frame is its generated run with the result dropped.
-/
import proofs.«118997_j7962869367673_1_alg».proof.Defs
import proofs.«118997_j7962869367673_1_alg».proof.Proof.Gen.Kernel
import proofs.«118997_j7962869367673_1_alg».proof.Proof.Gen.Kernel.Skeleton
import proofs.«118997_j7962869367673_1_alg».proof.Proof.Gen.Kernel.Launch
import proofs.«118997_j7962869367673_1_alg».proof.Proof.Gen.Kernel.Points
import proofs.«118997_j7962869367673_1_alg».proof.Proof.Gen.Kernel.Frame
import proofs.«118997_j7962869367673_1_alg».proof.Proof.Gen.KernelIdeal
import proofs.«118997_j7962869367673_1_alg».proof.Proof.Gen.KernelIdeal.Skeleton
import proofs.«118997_j7962869367673_1_alg».proof.Proof.Gen.KernelIdeal.Launch
import proofs.«118997_j7962869367673_1_alg».proof.Proof.Gen.KernelIdeal.Points
import proofs.«118997_j7962869367673_1_alg».proof.Proof.Gen.KernelIdeal.Frame
import proofs.«118997_j7962869367673_1_alg».proof.Proof.Gen.ReferenceIdeal
import proofs.«118997_j7962869367673_1_alg».proof.Proof.Gen.Pre_finite_inputs
import proofs.«118997_j7962869367673_1_alg».proof.Proof.Gen.ReferenceIdeal.Run
import proofs.«118997_j7962869367673_1_alg».proof.Proof.Gen.ReferenceIdeal.Read
import proofs.«118997_j7962869367673_1_alg».proof.Proof.KernelRun
import proofs.«118997_j7962869367673_1_alg».proof.Proof.KernelValue
import proofs.«118997_j7962869367673_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run ends with its arguments as launched. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Both programs end with the network function of the arguments in their result. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Sage.KernelValue.result_eq m ρ c), (h c).2⟩) (Cert.Sage.KernelRun.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v54_eq, Cert.Sage.RefValue.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
